-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4x16x4096 : Shape := ⟨3, ![4, 16, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4x16x4096 : S_.BroadcastsInDim S4x16x4096 (![] : Fin 0 → Fin S4x16x4096.rank)
  reducesTo_S4x16x4096_S_d0_1_2 : S4x16x4096.ReducesTo [0, 1, 2] S_

variable [Facts]

def fn_part1 {F : FTy → Type} [FloatOps F] (main_v13 : IVec S_ 1) (main_v16 : IVec S4x16x4096 1) : IVec S_ 1 :=
  let main_c_5 : IVec S_ 1 := constantI S_ 1 1#1
  let main_v17 : IVec S_ 1 := (fun x v => Host.reduce IntOp.andi x v reducesTo_S4x16x4096_S_d0_1_2 h_S_) main_v16 main_c_5
  let main_v18 : IVec S_ 1 := andi main_v13 main_v17
  main_v18

def fn {F : FTy → Type} [FloatOps F] (main_arg0 : FVec F S4x4096x4096 .f32) (main_arg1 : FVec F S4x4096x4096 .f32) (main_arg2 : FVec F S4x16x4096 .f32) (main_arg3 : FVec F S4x16x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S4x16x4096 .f32 := Host.absf main_arg2
  let main_cst_2 : FVec F S_ .f32 := constant S_ .f32 0x7F800000#32
  let main_v10 : FVec F S4x16x4096 .f32 := broadcastInDim S4x16x4096 ![] bcast_S_S4x16x4096 main_cst_2
  let main_v11 : IVec S4x16x4096 1 := cmpf .olt main_v9 main_v10
  let main_c_3 : IVec S_ 1 := constantI S_ 1 1#1
  let main_v12 : IVec S_ 1 := (fun x v => Host.reduce IntOp.andi x v reducesTo_S4x16x4096_S_d0_1_2 h_S_) main_v11 main_c_3
  let main_v13 : IVec S_ 1 := andi main_v8 main_v12
  let main_v14 : FVec F S4x16x4096 .f32 := Host.absf main_arg3
  let main_cst_4 : FVec F S_ .f32 := constant S_ .f32 0x7F800000#32
  let main_v15 : FVec F S4x16x4096 .f32 := broadcastInDim S4x16x4096 ![] bcast_S_S4x16x4096 main_cst_4
  let main_v16 : IVec S4x16x4096 1 := cmpf .olt main_v14 main_v15
  fn_part1 (F := F) main_v13 main_v16
-- ==== Kernel.lean ====
abbrev S4x4096x4096 : Shape := ⟨3, ![4, 4096, 4096]⟩
abbrev S4x16x4096 : Shape := ⟨3, ![4, 16, 4096]⟩
abbrev S4x4112x4096 : Shape := ⟨3, ![4, 4112, 4096]⟩
abbrev S4x64x4096 : Shape := ⟨3, ![4, 64, 4096]⟩

abbrev nBuf : Space → Nat
  | .hbm => 6
  | .vmem => 10
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S4x16x4096, .f32⟩
  | .hbm, ⟨3, _⟩ => ⟨S4x16x4096, .f32⟩
  | .hbm, ⟨4, _⟩ => ⟨S4x4112x4096, .f32⟩
  | .hbm, ⟨5, _⟩ => ⟨S4x4112x4096, .f32⟩
  | .local _ .vmem, ⟨0, _⟩ => ⟨S4x64x4096, .f32⟩
  | .local _ .vmem, ⟨1, _⟩ => ⟨S4x64x4096, .f32⟩
  | .local _ .vmem, ⟨2, _⟩ => ⟨S4x64x4096, .f32⟩
  | .local _ .vmem, ⟨3, _⟩ => ⟨S4x64x4096, .f32⟩
  | .local _ .vmem, ⟨4, _⟩ => ⟨S4x16x4096, .f32⟩
  | .local _ .vmem, ⟨5, _⟩ => ⟨S4x16x4096, .f32⟩
  | .local _ .vmem, ⟨6, _⟩ => ⟨S4x64x4096, .f32⟩
  | .local _ .vmem, ⟨7, _⟩ => ⟨S4x64x4096, .f32⟩
  | .local _ .vmem, ⟨8, _⟩ => ⟨S4x64x4096, .f32⟩
  | .local _ .vmem, ⟨9, _⟩ => ⟨S4x64x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c64_i32_0 : BitVec 32 := 64#32
  let v3 : BitVec 1 := Scalar.cmpi .eq arg0 c64_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S4x64x4096_S4x64x4096_0_0_0 : ∀ a, (![0, 0, 0] : Fin 3 → Nat) a + S4x64x4096.size a ≤ S4x64x4096.size a
  h_S4x64x4096 : 0 < S4x64x4096.numel
  inb_S4x16x4096_S4x16x4096_0_0_0 : ∀ a, (![0, 0, 0] : Fin 3 → Nat) a + S4x16x4096.size a ≤ S4x16x4096.size a
  h_S4x16x4096 : 0 < S4x16x4096.numel
  inb_S4x64x4096_S4x16x4096_0_0_0 : ∀ a, (![0, 0, 0] : Fin 3 → Nat) a + S4x16x4096.size a ≤ S4x64x4096.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x4096.size a ≤ S4x4096x4096.size a
  hwx0_0 : ∀ i : grid0.Coords, EltTy.bits .f32 = 32 ∨ (Rect.block (s := S4x4096x4096) S4x64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x64x4096.size a ≤ S4x4096x4096.size a
  hwx0_1 : ∀ i : grid0.Coords, EltTy.bits .f32 = 32 ∨ (Rect.block (s := S4x4096x4096) S4x64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x16x4096.size a ≤ S4x16x4096.size a
  hwx0_2 : ∀ i : grid0.Coords, EltTy.bits .f32 = 32 ∨ (Rect.block (s := S4x16x4096) S4x16x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x16x4096.size a ≤ S4x16x4096.size a
  hwx0_3 : ∀ i : grid0.Coords, EltTy.bits .f32 = 32 ∨ (Rect.block (s := S4x16x4096) S4x16x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S4x64x4096.size a < S4x4112x4096.size a
  hwx0_4 : ∀ i : grid0.Coords, EltTy.bits .f32 = 32 ∨ (Rect.unit (s := S4x4112x4096) (fun a => cc0_transform_4 i a * S4x64x4096.size a) (fun a => (Pipeline.Clip.of (cc0_transform_4 i a) (S4x64x4096.size a) (S4x4112x4096.size a)).extent (S4x64x4096.size a)) fun a => Pipeline.Clip.inb (Pipeline.Clip.ok_of (hstart0_4 i a))).WholeWords (EltTy.packing .f32)
  hwxs0_4 : ∀ i : grid0.Coords, EltTy.bits .f32 = 32 ∨ (Rect.unit (s := S4x64x4096) (fun _ => 0) (fun a => (Pipeline.Clip.of (cc0_transform_4 i a) (S4x64x4096.size a) (S4x4112x4096.size a)).extent (S4x64x4096.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S4x64x4096.size a < S4x4112x4096.size a
  hwx0_5 : ∀ i : grid0.Coords, EltTy.bits .f32 = 32 ∨ (Rect.unit (s := S4x4112x4096) (fun a => cc0_transform_5 i a * S4x64x4096.size a) (fun a => (Pipeline.Clip.of (cc0_transform_5 i a) (S4x64x4096.size a) (S4x4112x4096.size a)).extent (S4x64x4096.size a)) fun a => Pipeline.Clip.inb (Pipeline.Clip.ok_of (hstart0_5 i a))).WholeWords (EltTy.packing .f32)
  hwxs0_5 : ∀ i : grid0.Coords, EltTy.bits .f32 = 32 ∨ (Rect.unit (s := S4x64x4096) (fun _ => 0) (fun a => (Pipeline.Clip.of (cc0_transform_5 i a) (S4x64x4096.size a) (S4x4112x4096.size a)).extent (S4x64x4096.size a)) fun a => (Nat.zero_add _).trans_le (Pipeline.Clip.extent_le (Pipeline.Clip.ok_of (hstart0_5 i a)))).WholeWords (EltTy.packing .f32)

variable [Facts₀]

abbrev win0_0 : Pipeline.Window sig grid0 :=
  Pipeline.Window.ofSpec (Memref.whole main_arg0) S4x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x16x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v0_0) S4x64x4096.size cc0_transform_4 reads0_4 true false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v0_1) S4x64x4096.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond1 i == 1#1) && !(k0_cond2 i == 1#1) | 5 => fun i => !(k0_cond1 i == 1#1) && !(k0_cond2 i == 1#1) | ⟨_ + 6, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4x16x4096 : Shape := ⟨3, ![4, 16, 4096]⟩
abbrev S4x4112x4096 : Shape := ⟨3, ![4, 4112, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S4x16x4096, .f32⟩
  | .hbm, ⟨3, _⟩ => ⟨S4x16x4096, .f32⟩
  | .hbm, ⟨4, _⟩ => ⟨S4x4112x4096, .f32⟩
  | .hbm, ⟨5, _⟩ => ⟨S4x4112x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  concatenates_S4x4096x4096_S4x16x4096_S4x4112x4096_d1 : Shape.Concatenates [S4x4096x4096, S4x16x4096] S4x4112x4096 1

variable [Facts₀]

class Facts : Prop extends Facts₀ where

variable [Facts]
-- ==== Proof.Append.lean ====
/-
  Appending rows to a cache: for an old array of 4096 rows and a new one of 16 rows (each row 4096 long, four
  such tables side by side on the leading axis), their concatenation along the row axis has 4112 rows; row
  `r` of it is row `r` of the old array when `r < 4096` and row `r - 4096` of the new one otherwise. Both
  readings are instances of the library's two-piece concatenation lemmas; nothing here depends on what the
  entries are, so the statements hold for any element type.
-/
import Idealize.ShloMosaic.PureOps
import Idealize.ShloMosaic.Lib.Pipeline.Value

namespace Cert.Append

open Idealize.ShloMosaic

/-- The old array's shape, the new rows' shape, and the shape of the two appended. -/
abbrev SOld : Shape := ⟨3, ![4, 4096, 4096]⟩
abbrev SNew : Shape := ⟨3, ![4, 16, 4096]⟩
abbrev SAll : Shape := ⟨3, ![4, 4112, 4096]⟩

/-- 4096 rows and 16 rows make 4112; the other two axes agree. -/
theorem fits : Shape.Concatenates [SOld, SNew] SAll 1 := by decide

variable {α : Type}

/-- The appended array: the old array followed, along the row axis, by the new rows. -/
abbrev appended (h : Shape.Concatenates [SOld, SNew] SAll 1) (old : SOld.Idx → α) (new : SNew.Idx → α) : SAll.Idx → α :=
  concatenate SAll 1 [⟨SOld, old⟩, ⟨SNew, new⟩] h

/-- Below row 4096 the appended array is the old one, at the same coordinates. -/
theorem appended_old (h : Shape.Concatenates [SOld, SNew] SAll 1) (old : SOld.Idx → α) (new : SNew.Idx → α)
    (j : SAll.Idx) (i : SOld.Idx) (hi : ∀ k : Fin 3, (i k).val = (j k).val) :
    appended h old new j = old i :=
  concatenate_pair_apply_left (t := SAll) (s₁ := SOld) (s₂ := SNew) (1 : Fin 3) old new h j rfl i hi

/-- From row 4096 on it is the new rows, the row number less 4096, the other two coordinates the same. -/
theorem appended_new (h : Shape.Concatenates [SOld, SNew] SAll 1) (old : SOld.Idx → α) (new : SNew.Idx → α)
    (j : SAll.Idx) (i : SNew.Idx) (h0 : (i 0).val = (j 0).val) (h1 : (i 1).val + 4096 = (j 1).val)
    (h2 : (i 2).val = (j 2).val) :
    appended h old new j = new i :=
  concatenate_pair_apply_right (t := SAll) (s₁ := SOld) (s₂ := SNew) (1 : Fin 3) old new h j rfl rfl i
    (fun b hb => by
      match b, hb with
      | ⟨0, _⟩, _ => exact h0
      | ⟨1, _⟩, hb => exact absurd rfl hb
      | ⟨2, _⟩, _ => exact h2)
    h1

end Cert.Append
-- ==== Proof.LibWriteOverlay.lean ====
/-
  One unmasked write into a buffer, read back: the buffer's earlier contents with the written rectangle's part
  replaced by the payload. And, for a rectangle that starts at the origin with unit strides, the replaced
  contents at an index inside the rectangle are the payload at the same coordinates. Both hold for any view of
  the shape, any element type and any earlier contents; nothing is assumed about covering.
-/
import Idealize.ShloMosaic.Lib.Writes
import Idealize.ShloMosaic.Lib.Memref

namespace Cert.WriteOverlay

open Idealize.ShloMosaic

variable {sig : RefSig} {κ : Kind} {sp : Space} {s : Shape} {e : EltTy} {Val : EltTy → Type}

/-- A single write through rectangle `r` over contents that read `X` reads `X` overlaid on `r` by the payload:
    under `r` the payload (the last write wins), off `r` what was there. -/
theorem read_write_eq_overlay (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [View.read_writes_apply_of_forall_not_mem v f y _ (fun p hp => by rw [List.mem_singleton.mp hp]; exact hy),
      Rect.overlay_of_not_mem _ _ _ hy]

/-- An overlay through a unit-stride rectangle at the origin, at an index whose coordinates are those of the
    rectangle's index `x`, is the payload at `x`. -/
theorem overlay_origin_apply {α : Type} {off size : Fin s.rank → Nat} (hz : off = fun _ => 0)
    (inb : ∀ a, off a + size a ≤ s.size a) (X : s.Idx → α) (G : (Rect.unit off size inb).shape.Idx → α)
    (y : s.Idx) (x : (Rect.unit off size inb).shape.Idx) (hx : ∀ a, (y a).val = (x a).val) :
    (Rect.unit off size inb).overlay X G y = G x := by
  subst hz
  have hy : y = (Rect.unit (fun _ => 0) size inb).emb x := funext fun a => Fin.ext (by
    rw [Rect.emb_apply]; show (y a).val = 0 + 1 * (x a).val; rw [hx a]; omega)
  rw [hy, Rect.overlay_emb]

end Cert.WriteOverlay
-- ==== Proof.BodyBits.lean ====
/-
  The kernel body at one grid point, run on any six whole staging buffers.

  The body has two guarded parts. Where the first guard holds and the second fails (the copying points) it
  stores the whole of the first cache block into the first result buffer and the whole of the second cache
  block into the second result buffer: each result buffer ends holding exactly the cache block it was given,
  whatever it held before. Where the first guard fails and the second holds (the appending point) it stores
  the sixteen new rows into the first sixteen rows of each 64-row result buffer and touches nothing else: each
  result buffer ends holding what it held before with its first sixteen rows replaced by the new rows. In both
  cases the four input buffers are only read and are handed back unchanged.
-/
import proofs.«164889_j12163347382340_2_alg».proof.Proof.Gen.Kernel.Frame
import proofs.«164889_j12163347382340_2_alg».proof.Proof.Gen.Kernel.Skeleton
import proofs.«164889_j12163347382340_2_alg».proof.Proof.LibWriteOverlay
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The three zero offsets every access of the body starts at. -/
theorem zero_offsets : (![0, 0, 0] : Fin 3 → Nat) = fun _ => 0 := funext fun a => by fin_cases a <;> rfl

/-- The first sixteen rows of a 64-row staging block, as a rectangle of the block. -/
abbrev topRows : Rect S4x64x4096 :=
  Rect.unit (s := S4x64x4096) ![0, 0, 0] S4x16x4096.size Facts₀.inb_S4x64x4096_S4x16x4096_0_0_0

/-- A 64-row block with its first sixteen rows replaced by the sixteen rows `x`. -/
abbrev withTopRows (d : Vec F S4x64x4096 .f32) (x : Vec F S4x16x4096 .f32) : Vec F S4x64x4096 .f32 :=
  topRows.overlay d x

/-- Inside the first sixteen rows, the replaced block is the new rows at the same coordinates. -/
theorem withTopRows_apply (d : Vec F S4x64x4096 .f32) (x : Vec F S4x16x4096 .f32) (y : S4x64x4096.Idx)
    (i : S4x16x4096.Idx) (hi : ∀ a, (y a).val = (i a).val) : withTopRows d x y = x i :=
  Cert.WriteOverlay.overlay_origin_apply zero_offsets Facts₀.inb_S4x64x4096_S4x16x4096_0_0_0 d x y i hi

set_option maxHeartbeats 1000000 in
/-- THE COPYING POINTS: the first guard holds, the second does not. Each result buffer ends at the cache block
    beside it; the inputs are unchanged. -/
theorem run_copy (c : Dev nD) (i : grid0.Coords) (arg1 : Memref sig .tc .vmem S4x64x4096 .f32) (harg1 : arg1.IsWhole) (arg2 : Memref sig .tc .vmem S4x64x4096 .f32) (harg2 : arg2.IsWhole) (arg3 : Memref sig .tc .vmem S4x16x4096 .f32) (harg3 : arg3.IsWhole) (arg4 : Memref sig .tc .vmem S4x16x4096 .f32) (harg4 : arg4.IsWhole) (arg5 : Memref sig .tc .vmem S4x64x4096 .f32) (harg5 : arg5.IsWhole) (arg6 : Memref sig .tc .vmem S4x64x4096 .f32) (harg6 : arg6.IsWhole) (hc0 : k0_cond1 i = 1#1) (hc1 : ¬k0_cond2 i = 1#1)
    (x0 : Vec F S4x64x4096 .f32) (x1 : Vec F S4x64x4096 .f32) (x2 : Vec F S4x16x4096 .f32) (x3 : Vec F S4x16x4096 .f32) (d4 d5 : Vec F S4x64x4096 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d4 ∗ owns (c : Thread nD τ) arg6 fullShare d5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x0 ∗ owns (c : Thread nD τ) arg6 fullShare x1) -∗ K ⟨⟩))
          ⊢ wp frame (wpE (defs₀ (F := F)) Variants.none c none) E (cc0__kv_append_kernel i arg1 harg1 arg2 harg2 arg3 harg3 arg4 harg4 arg5 harg5 arg6 harg6) K := by
    intro E K
    simp only [cc0__kv_append_kernel_eq_skeleton]; unfold cc0__kv_append_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      -- one store of the whole block: what was there before is gone, the payload is the first cache block as loaded
      rw [View.read_writes_eq_canon _ _ _ (fun y => ⟨_, List.mem_singleton_self _, View.mem_set_unit_zero zero_offsets Facts₀.inb_S4x64x4096_S4x64x4096_0_0_0 y⟩),
        View.canon_unit_zero zero_offsets, View.readAt_eq_ld, harg1.read_unread, View.ld_unit_zero zero_offsets]
    iexists _; isplitr; swap; · iexact H5
    ipureintro
    rw [View.read_writes_eq_canon _ _ _ (fun y => ⟨_, List.mem_singleton_self _, View.mem_set_unit_zero zero_offsets Facts₀.inb_S4x64x4096_S4x64x4096_0_0_0 y⟩),
      View.canon_unit_zero zero_offsets, View.readAt_eq_ld, harg2.read_unread, View.ld_unit_zero zero_offsets]

set_option maxHeartbeats 1000000 in
/-- THE APPENDING POINT: the first guard fails, the second holds. Each result buffer ends at what it held with its
    first sixteen rows replaced by the new rows beside it; the inputs are unchanged. -/
theorem run_append (c : Dev nD) (i : grid0.Coords) (arg1 : Memref sig .tc .vmem S4x64x4096 .f32) (harg1 : arg1.IsWhole) (arg2 : Memref sig .tc .vmem S4x64x4096 .f32) (harg2 : arg2.IsWhole) (arg3 : Memref sig .tc .vmem S4x16x4096 .f32) (harg3 : arg3.IsWhole) (arg4 : Memref sig .tc .vmem S4x16x4096 .f32) (harg4 : arg4.IsWhole) (arg5 : Memref sig .tc .vmem S4x64x4096 .f32) (harg5 : arg5.IsWhole) (arg6 : Memref sig .tc .vmem S4x64x4096 .f32) (harg6 : arg6.IsWhole) (hc0 : ¬k0_cond1 i = 1#1) (hc1 : k0_cond2 i = 1#1)
    (x0 : Vec F S4x64x4096 .f32) (x1 : Vec F S4x64x4096 .f32) (x2 : Vec F S4x16x4096 .f32) (x3 : Vec F S4x16x4096 .f32) (d4 d5 : Vec F S4x64x4096 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d4 ∗ owns (c : Thread nD τ) arg6 fullShare d5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (withTopRows d4 x2) ∗ owns (c : Thread nD τ) arg6 fullShare (withTopRows d5 x3)) -∗ K ⟨⟩))
          ⊢ wp frame (wpE (defs₀ (F := F)) Variants.none c none) E (cc0__kv_append_kernel i arg1 harg1 arg2 harg2 arg3 harg3 arg4 harg4 arg5 harg5 arg6 harg6) K := by
    intro E K
    simp only [cc0__kv_append_kernel_eq_skeleton]; unfold cc0__kv_append_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      -- one store through the first sixteen rows over what the buffer held; the payload is the new rows as loaded
      rw [Cert.WriteOverlay.read_write_eq_overlay, harg5.read_unread, View.readAt_eq_ld, harg3.read_unread,
        View.ld_unit_zero zero_offsets]
    iexists _; isplitr; swap; · iexact H5
    ipureintro
    rw [Cert.WriteOverlay.read_write_eq_overlay, harg6.read_unread, View.readAt_eq_ld, harg4.read_unread,
      View.ld_unit_zero zero_offsets]

end Cert.Kernel.Body

end
-- ==== Proof.BlocksBits.lean ====
/-
  The blocks of the two result arrays.

  Each result array has 4112 rows and is written back in 65 blocks of 64 rows: block `t` starts at row `64 t`.
  Blocks 0 to 63 lie inside the array; block 64 starts at row 4096 and only its first 16 rows are inside (rows
  4096 to 4111), so only those are written back. The cache arrays have 4096 rows in 64 blocks of 64, and at the last
  point their block index is held at 63; the new rows are one block of 16 rows, the same at every point.

  With `out` the cache array followed by the new rows (the appended array), this file shows that what each point leaves
  in a result buffer agrees with block `t` of `out` on the part written back: at a copying point `t < 64` the buffer holds
  cache block `t`, rows `64 t` to `64 t + 63` of the cache, which are those rows of `out`; at the appending point
  the buffer's first 16 rows hold the new rows, which are rows 4096 to 4111 of `out`. It also shows that every row of a
  result array lies in the written part of some block: row `r` in block `r / 64`.
-/
import proofs.«164889_j12163347382340_2_alg».proof.Proof.BodyBits
import proofs.«164889_j12163347382340_2_alg».proof.Proof.Append
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ)

/-- The first result array as it should end: the first cache array followed by the first new rows. -/
def outK (c : Dev nD) : Buf (Elt F) ((c : Thread nD τ).loc main_v0_0) :=
  Cert.Append.appended Cert.Append.fits (m ((c : Thread nD τ).loc main_arg0)) (m ((c : Thread nD τ).loc main_arg2))

/-- The second result array as it should end: the second cache array followed by the second new rows. -/
def outV (c : Dev nD) : Buf (Elt F) ((c : Thread nD τ).loc main_v0_1) :=
  Cert.Append.appended Cert.Append.fits (m ((c : Thread nD τ).loc main_arg1)) (m ((c : Thread nD τ).loc main_arg3))

/-- The index maps and the written-back sizes, decided once over the 65 grid points: a result block's row index is the
    point, a cache block's the point held at 63, the new rows' always 0; a result block is written back whole before the
    last point and on its first 16 rows at the last. -/
theorem grid_facts : ∀ t : Fin cfg0.N,
    (win0_4.index t (0 : Fin 3) = 0 ∧ win0_4.index t (1 : Fin 3) = t.val ∧ win0_4.index t (2 : Fin 3) = 0)
    ∧ (win0_5.index t (0 : Fin 3) = 0 ∧ win0_5.index t (1 : Fin 3) = t.val ∧ win0_5.index t (2 : Fin 3) = 0)
    ∧ (win0_0.index t (0 : Fin 3) = 0 ∧ win0_0.index t (1 : Fin 3) = min t.val 63 ∧ win0_0.index t (2 : Fin 3) = 0)
    ∧ (win0_1.index t (0 : Fin 3) = 0 ∧ win0_1.index t (1 : Fin 3) = min t.val 63 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.xsize (grid0.coords t) (0 : Fin 3) = 4 ∧ (t.val < 64 → win0_4.xsize (grid0.coords t) (1 : Fin 3) = 64)
        ∧ (t.val = 64 → win0_4.xsize (grid0.coords t) (1 : Fin 3) = 16) ∧ win0_4.xsize (grid0.coords t) (2 : Fin 3) = 4096)
    ∧ (win0_5.xsize (grid0.coords t) (0 : Fin 3) = 4 ∧ (t.val < 64 → win0_5.xsize (grid0.coords t) (1 : Fin 3) = 64)
        ∧ (t.val = 64 → win0_5.xsize (grid0.coords t) (1 : Fin 3) = 16) ∧ win0_5.xsize (grid0.coords t) (2 : Fin 3) = 4096) :=
  (by decide +kernel : ∀ t : Fin grid0.N, _)

/-- Neither result window is idle at any point: one of the two guards holds everywhere on the grid. -/
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-- The first guard holds exactly before point 64, the second exactly at it. -/
theorem guard_copy : ∀ t : Fin cfg0.N, k0_cond1 (grid0.coords t) = 1#1 ↔ t.val < 64 :=
  (by decide +kernel : ∀ t : Fin grid0.N, k0_cond1 (grid0.coords t) = 1#1 ↔ t.val < 64)
theorem guard_append : ∀ t : Fin cfg0.N, k0_cond2 (grid0.coords t) = 1#1 ↔ t.val = 64 :=
  (by decide +kernel : ∀ t : Fin grid0.N, k0_cond2 (grid0.coords t) = 1#1 ↔ t.val = 64)

/-! ## A copying point: cache block `t` is block `t` of the appended array -/

theorem cut_copy4 (c : Dev nD) (t : Fin cfg0.N) (h0 : t.val < 64) :
    win0_4.cut (grid0.coords t) (iblk m c 0 t) = (win0_4.blk t).view.read (Elt F) (outK m c) := by
  obtain ⟨⟨a0, a1, a2⟩, -, ⟨b0, b1, b2⟩, -, -, -, -, -⟩ := grid_facts t
  funext j
  show V m c main_arg0 (((cfg0.win 0).blk t).view.emb (win0_4.xinj (grid0.coords t) j)) = outK m c ((win0_4.blk t).view.emb j)
  unfold outK
  refine (Cert.Append.appended_old _ _ _ _ (((cfg0.win 0).blk t).view.emb (win0_4.xinj (grid0.coords t) j)) fun k => ?_).symm
  match k with
  | ⟨0, _⟩ => show win0_0.index t (0 : Fin 3) * 4 + 1 * (j 0).val = win0_4.index t (0 : Fin 3) * 4 + 1 * (j 0).val; omega
  | ⟨1, _⟩ => show win0_0.index t (1 : Fin 3) * 64 + 1 * (j 1).val = win0_4.index t (1 : Fin 3) * 64 + 1 * (j 1).val; omega
  | ⟨2, _⟩ => show win0_0.index t (2 : Fin 3) * 4096 + 1 * (j 2).val = win0_4.index t (2 : Fin 3) * 4096 + 1 * (j 2).val; omega

theorem cut_copy5 (c : Dev nD) (t : Fin cfg0.N) (h0 : t.val < 64) :
    win0_5.cut (grid0.coords t) (iblk m c 1 t) = (win0_5.blk t).view.read (Elt F) (outV m c) := by
  obtain ⟨-, ⟨a0, a1, a2⟩, -, ⟨b0, b1, b2⟩, -, -, -, -⟩ := grid_facts t
  funext j
  show V m c main_arg1 (((cfg0.win 1).blk t).view.emb (win0_5.xinj (grid0.coords t) j)) = outV m c ((win0_5.blk t).view.emb j)
  unfold outV
  refine (Cert.Append.appended_old _ _ _ _ (((cfg0.win 1).blk t).view.emb (win0_5.xinj (grid0.coords t) j)) fun k => ?_).symm
  match k with
  | ⟨0, _⟩ => show win0_1.index t (0 : Fin 3) * 4 + 1 * (j 0).val = win0_5.index t (0 : Fin 3) * 4 + 1 * (j 0).val; omega
  | ⟨1, _⟩ => show win0_1.index t (1 : Fin 3) * 64 + 1 * (j 1).val = win0_5.index t (1 : Fin 3) * 64 + 1 * (j 1).val; omega
  | ⟨2, _⟩ => show win0_1.index t (2 : Fin 3) * 4096 + 1 * (j 2).val = win0_5.index t (2 : Fin 3) * 4096 + 1 * (j 2).val; omega

/-! ## The appending point: the buffer's first sixteen rows are rows 4096 to 4111 of the appended array -/

theorem cut_append4 (c : Dev nD) (t : Fin cfg0.N) (h1 : t.val = 64) (d : Vec F S4x64x4096 .f32) :
    win0_4.cut (grid0.coords t) (withTopRows d (iblk m c 2 t)) = (win0_4.blk t).view.read (Elt F) (outK m c) := by
  obtain ⟨⟨a0, a1, a2⟩, -, -, -, ⟨b0, b1, b2⟩, -, ⟨s0, -, s1, s2⟩, -⟩ := grid_facts t
  funext j
  have hj : ∀ a : Fin 3, (j a).val < win0_4.xsize (grid0.coords t) a := fun a => (j a).isLt
  have hj0 := hj 0
  have hj1 := hj 1
  have hj2 := hj 2
  rw [s0] at hj0; rw [s1 h1] at hj1; rw [s2] at hj2
  show withTopRows d (iblk m c 2 t) (win0_4.xinj (grid0.coords t) j) = outK m c ((win0_4.blk t).view.emb j)
  refine (withTopRows_apply d (iblk m c 2 t) (win0_4.xinj (grid0.coords t) j)
    (ValueIdx.ix3 (⟨(j 0).val, hj0⟩ : Fin 4) (⟨(j 1).val, hj1⟩ : Fin 16) (⟨(j 2).val, hj2⟩ : Fin 4096))
    (fun a => by match a with | ⟨0, _⟩ => rfl | ⟨1, _⟩ => rfl | ⟨2, _⟩ => rfl)).trans ?_
  show V m c main_arg2 (((cfg0.win 2).blk t).view.emb (ValueIdx.ix3 (⟨(j 0).val, hj0⟩ : Fin 4) (⟨(j 1).val, hj1⟩ : Fin 16) (⟨(j 2).val, hj2⟩ : Fin 4096))) = _
  unfold outK
  refine (Cert.Append.appended_new _ _ _ _ (((cfg0.win 2).blk t).view.emb (ValueIdx.ix3 (⟨(j 0).val, hj0⟩ : Fin 4) (⟨(j 1).val, hj1⟩ : Fin 16) (⟨(j 2).val, hj2⟩ : Fin 4096))) ?_ ?_ ?_).symm
  · show win0_2.index t (0 : Fin 3) * 4 + 1 * (j 0).val = win0_4.index t (0 : Fin 3) * 4 + 1 * (j 0).val; omega
  · show win0_2.index t (1 : Fin 3) * 16 + 1 * (j 1).val + 4096 = win0_4.index t (1 : Fin 3) * 64 + 1 * (j 1).val; omega
  · show win0_2.index t (2 : Fin 3) * 4096 + 1 * (j 2).val = win0_4.index t (2 : Fin 3) * 4096 + 1 * (j 2).val; omega

theorem cut_append5 (c : Dev nD) (t : Fin cfg0.N) (h1 : t.val = 64) (d : Vec F S4x64x4096 .f32) :
    win0_5.cut (grid0.coords t) (withTopRows d (iblk m c 3 t)) = (win0_5.blk t).view.read (Elt F) (outV m c) := by
  obtain ⟨-, ⟨a0, a1, a2⟩, -, -, -, ⟨b0, b1, b2⟩, -, ⟨s0, -, s1, s2⟩⟩ := grid_facts t
  funext j
  have hj : ∀ a : Fin 3, (j a).val < win0_5.xsize (grid0.coords t) a := fun a => (j a).isLt
  have hj0 := hj 0
  have hj1 := hj 1
  have hj2 := hj 2
  rw [s0] at hj0; rw [s1 h1] at hj1; rw [s2] at hj2
  show withTopRows d (iblk m c 3 t) (win0_5.xinj (grid0.coords t) j) = outV m c ((win0_5.blk t).view.emb j)
  refine (withTopRows_apply d (iblk m c 3 t) (win0_5.xinj (grid0.coords t) j)
    (ValueIdx.ix3 (⟨(j 0).val, hj0⟩ : Fin 4) (⟨(j 1).val, hj1⟩ : Fin 16) (⟨(j 2).val, hj2⟩ : Fin 4096))
    (fun a => by match a with | ⟨0, _⟩ => rfl | ⟨1, _⟩ => rfl | ⟨2, _⟩ => rfl)).trans ?_
  show V m c main_arg3 (((cfg0.win 3).blk t).view.emb (ValueIdx.ix3 (⟨(j 0).val, hj0⟩ : Fin 4) (⟨(j 1).val, hj1⟩ : Fin 16) (⟨(j 2).val, hj2⟩ : Fin 4096))) = _
  unfold outV
  refine (Cert.Append.appended_new _ _ _ _ (((cfg0.win 3).blk t).view.emb (ValueIdx.ix3 (⟨(j 0).val, hj0⟩ : Fin 4) (⟨(j 1).val, hj1⟩ : Fin 16) (⟨(j 2).val, hj2⟩ : Fin 4096))) ?_ ?_ ?_).symm
  · show win0_3.index t (0 : Fin 3) * 4 + 1 * (j 0).val = win0_5.index t (0 : Fin 3) * 4 + 1 * (j 0).val; omega
  · show win0_3.index t (1 : Fin 3) * 16 + 1 * (j 1).val + 4096 = win0_5.index t (1 : Fin 3) * 64 + 1 * (j 1).val; omega
  · show win0_3.index t (2 : Fin 3) * 4096 + 1 * (j 2).val = win0_5.index t (2 : Fin 3) * 4096 + 1 * (j 2).val; omega

/-! ## Every row of a result array is written back by some point -/

/-- An index of the first result array is in the written part of block `t` iff each coordinate is in the block's range,
    the range cut at the array's end. -/
theorem mem_blk4 (t : Fin cfg0.N) (i : S4x4112x4096.Idx) :
    i ∈ ((cfg0.win 4).blk t).view.set ↔ ∀ a : Fin 3, win0_4.index t a * S4x64x4096.size a ≤ (i a).val
      ∧ (i a).val < win0_4.index t a * S4x64x4096.size a + win0_4.xsize (grid0.coords t) a := by
  show i ∈ ((View.whole main_v0_0).slice (win0_4.rect t)).set ↔ _
  rw [View.set_slice_whole, Rect.mem_set_unit]
  exact Iff.rfl

theorem mem_blk5 (t : Fin cfg0.N) (i : S4x4112x4096.Idx) :
    i ∈ ((cfg0.win 5).blk t).view.set ↔ ∀ a : Fin 3, win0_5.index t a * S4x64x4096.size a ≤ (i a).val
      ∧ (i a).val < win0_5.index t a * S4x64x4096.size a + win0_5.xsize (grid0.coords t) a := by
  show i ∈ ((View.whole main_v0_1).slice (win0_5.rect t)).set ↔ _
  rw [View.set_slice_whole, Rect.mem_set_unit]
  exact Iff.rfl

/-- Row `r` is in the written part of block `r / 64`: a whole block when `r < 4096`, the sixteen rows of the last
    block otherwise. -/
theorem cover4 (i : S4x4112x4096.Idx) : ∃ t : Fin cfg0.N, (cfg0.win 4).flush t = true ∧ i ∈ ((cfg0.win 4).blk t).view.set := by
  have h0 : (i 0).val < 4 := (i 0).isLt
  have h1 : (i 1).val < 4112 := (i 1).isLt
  have h2 : (i 2).val < 4096 := (i 2).isLt
  have hN : (i 1).val / 64 < cfg0.N := by show _ < grid0.N; rw [N_0]; omega
  refine ⟨⟨(i 1).val / 64, hN⟩, flush0_4 _, ?_⟩
  rw [mem_blk4]
  obtain ⟨⟨a0, a1, a2⟩, -, -, -, -, -, ⟨s0, sA, sB, s2⟩, -⟩ := grid_facts ⟨(i 1).val / 64, hN⟩
  have a1' : win0_4.index ⟨(i 1).val / 64, hN⟩ (1 : Fin 3) = (i 1).val / 64 := a1
  intro a
  match a with
  | ⟨0, _⟩ =>
    show win0_4.index ⟨(i 1).val / 64, hN⟩ (0 : Fin 3) * 4 ≤ (i 0).val ∧ (i 0).val < win0_4.index ⟨(i 1).val / 64, hN⟩ (0 : Fin 3) * 4 + win0_4.xsize (grid0.coords ⟨(i 1).val / 64, hN⟩) (0 : Fin 3)
    rw [s0]; omega
  | ⟨1, _⟩ =>
    show win0_4.index ⟨(i 1).val / 64, hN⟩ (1 : Fin 3) * 64 ≤ (i 1).val ∧ (i 1).val < win0_4.index ⟨(i 1).val / 64, hN⟩ (1 : Fin 3) * 64 + win0_4.xsize (grid0.coords ⟨(i 1).val / 64, hN⟩) (1 : Fin 3)
    by_cases hlt : (i 1).val / 64 < 64
    · rw [sA hlt]; omega
    · rw [sB (by show (i 1).val / 64 = 64; omega)]; omega
  | ⟨2, _⟩ =>
    show win0_4.index ⟨(i 1).val / 64, hN⟩ (2 : Fin 3) * 4096 ≤ (i 2).val ∧ (i 2).val < win0_4.index ⟨(i 1).val / 64, hN⟩ (2 : Fin 3) * 4096 + win0_4.xsize (grid0.coords ⟨(i 1).val / 64, hN⟩) (2 : Fin 3)
    rw [s2]; omega

theorem cover5 (i : S4x4112x4096.Idx) : ∃ t : Fin cfg0.N, (cfg0.win 5).flush t = true ∧ i ∈ ((cfg0.win 5).blk t).view.set := by
  have h0 : (i 0).val < 4 := (i 0).isLt
  have h1 : (i 1).val < 4112 := (i 1).isLt
  have h2 : (i 2).val < 4096 := (i 2).isLt
  have hN : (i 1).val / 64 < cfg0.N := by show _ < grid0.N; rw [N_0]; omega
  refine ⟨⟨(i 1).val / 64, hN⟩, flush0_5 _, ?_⟩
  rw [mem_blk5]
  obtain ⟨-, ⟨a0, a1, a2⟩, -, -, -, -, -, ⟨s0, sA, sB, s2⟩⟩ := grid_facts ⟨(i 1).val / 64, hN⟩
  have a1' : win0_5.index ⟨(i 1).val / 64, hN⟩ (1 : Fin 3) = (i 1).val / 64 := a1
  intro a
  match a with
  | ⟨0, _⟩ =>
    show win0_5.index ⟨(i 1).val / 64, hN⟩ (0 : Fin 3) * 4 ≤ (i 0).val ∧ (i 0).val < win0_5.index ⟨(i 1).val / 64, hN⟩ (0 : Fin 3) * 4 + win0_5.xsize (grid0.coords ⟨(i 1).val / 64, hN⟩) (0 : Fin 3)
    rw [s0]; omega
  | ⟨1, _⟩ =>
    show win0_5.index ⟨(i 1).val / 64, hN⟩ (1 : Fin 3) * 64 ≤ (i 1).val ∧ (i 1).val < win0_5.index ⟨(i 1).val / 64, hN⟩ (1 : Fin 3) * 64 + win0_5.xsize (grid0.coords ⟨(i 1).val / 64, hN⟩) (1 : Fin 3)
    by_cases hlt : (i 1).val / 64 < 64
    · rw [sA hlt]; omega
    · rw [sB (by show (i 1).val / 64 = 64; omega)]; omega
  | ⟨2, _⟩ =>
    show win0_5.index ⟨(i 1).val / 64, hN⟩ (2 : Fin 3) * 4096 ≤ (i 2).val ∧ (i 2).val < win0_5.index ⟨(i 1).val / 64, hN⟩ (2 : Fin 3) * 4096 + win0_5.xsize (grid0.coords ⟨(i 1).val / 64, hN⟩) (2 : Fin 3)
    rw [s2]; omega

end Cert.Kernel.Body

end
-- ==== Proof.FrameBits.lean ====
/-
  The pipeline's proof data, the body obligation at every grid point, and the run.

  After the body at point `t` each input buffer still holds its block, and each result buffer holds block `t` of the
  appended array on the rows that are written back (all 64 rows before the last point, the first 16 at the last);
  the rows of the last block that overhang the array are not written back and nothing is said of them. The body
  obligation follows from the two runs of the body: at a copying point the result buffer holds the cache block, which
  is that block of the appended array; at the appending point its first sixteen rows hold the new rows, which are rows
  4096 to 4111 of the appended array. The library's frame run then gives: every weakly fair execution terminates, each
  input array is unchanged and each result array is what the write-backs, in point order, leave.
-/
import proofs.«164889_j12163347382340_2_alg».proof.Proof.BlocksBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What fills a result block past the array's end in the proof data: a fixed word, never written back. -/
abbrev filler : S4x64x4096.Idx → Elt F .f32 := fun _ => Scalar.ofBits .f32 0#32

/-- The proof data of the one pipeline on core `c`: the arrays as the region finds them; after the body at point `t`
    each input's buffer at its block, each result's at block `t` of the appended array, filled out past the array's end. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => win0_4.fill (grid0.coords t) filler ((win0_4.blk t).view.read (Elt F) (outK m c))
    | ⟨5, _⟩ => win0_5.fill (grid0.coords t) filler ((win0_5.blk t).view.read (Elt F) (outV m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = win0_4.fill (grid0.coords t) filler ((win0_4.blk t).view.read (Elt F) (outK m c)) := by dsimp only [dats]
theorem after0_5 (c : Dev nD) (t : Fin cfg0.N) : (dats m 0 c).after 5 t
    = win0_5.fill (grid0.coords t) filler ((win0_5.blk t).view.read (Elt F) (outV m c)) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What point `t` writes back of a result buffer is block `t` of the appended array. -/
theorem flushed4 (c : Dev nD) (t : Fin cfg0.N) :
    (dats m 0 c).flushed 4 t = ((cfg0.win 4).blk t).view.read (Elt F) (outK m c) := by
  show (cfg0.win 4).cut (grid0.coords t) ((dats m 0 c).after 4 t) = _
  rw [after0_4]; exact win0_4.cut_fill _ _ _
theorem flushed5 (c : Dev nD) (t : Fin cfg0.N) :
    (dats m 0 c).flushed 5 t = ((cfg0.win 5).blk t).view.read (Elt F) (outV m c) := by
  show (cfg0.win 5).cut (grid0.coords t) ((dats m 0 c).after 5 t) = _
  rw [after0_5]; exact win0_5.cut_fill _ _ _

/-! ## The current staging memrefs -/

abbrev ms0_0 (t : Fin cfg0.N) : Memref sig .tc .vmem S4x64x4096 .f32 := win0_0.stage (cfg0.slots t 0)
abbrev ms0_1 (t : Fin cfg0.N) : Memref sig .tc .vmem S4x64x4096 .f32 := win0_1.stage (cfg0.slots t 1)
abbrev ms0_2 (t : Fin cfg0.N) : Memref sig .tc .vmem S4x16x4096 .f32 := win0_2.stage (cfg0.slots t 2)
abbrev ms0_3 (t : Fin cfg0.N) : Memref sig .tc .vmem S4x16x4096 .f32 := win0_3.stage (cfg0.slots t 3)
abbrev ms0_4 (t : Fin cfg0.N) : Memref sig .tc .vmem S4x64x4096 .f32 := win0_4.stage (cfg0.slots t 4)
abbrev ms0_5 (t : Fin cfg0.N) : Memref sig .tc .vmem S4x64x4096 .f32 := win0_5.stage (cfg0.slots t 5)

/-! ## What the obligation asks of each buffer after the body -/

theorem leaves_in0 (c : Dev nD) (t : Fin cfg0.N) :
    ((dats m 0 c).leaves 0 t : sProp 𝕄) = owns (c : Thread nD τ) (ms0_0 t) fullShare (iblk m c 0 t) := by
  unfold Dat.leaves; rw [liveAt0_0 t, ← after0_0 m c t]
theorem leaves_in1 (c : Dev nD) (t : Fin cfg0.N) :
    ((dats m 0 c).leaves 1 t : sProp 𝕄) = owns (c : Thread nD τ) (ms0_1 t) fullShare (iblk m c 1 t) := by
  unfold Dat.leaves; rw [liveAt0_1 t, ← after0_1 m c t]
theorem leaves_in2 (c : Dev nD) (t : Fin cfg0.N) :
    ((dats m 0 c).leaves 2 t : sProp 𝕄) = owns (c : Thread nD τ) (ms0_2 t) fullShare (iblk m c 2 t) := by
  unfold Dat.leaves; rw [liveAt0_2 t, ← after0_2 m c t]
theorem leaves_in3 (c : Dev nD) (t : Fin cfg0.N) :
    ((dats m 0 c).leaves 3 t : sProp 𝕄) = owns (c : Thread nD τ) (ms0_3 t) fullShare (iblk m c 3 t) := by
  unfold Dat.leaves; rw [liveAt0_3 t, ← after0_3 m c t]

/-- A result buffer whose written-back part is block `t` of the appended array is what the obligation asks for: the
    obligation speaks of that part only. -/
theorem leaves_out4 (c : Dev nD) (t : Fin cfg0.N) (X : Vec F S4x64x4096 .f32)
    (hX : win0_4.cut (grid0.coords t) X = (win0_4.blk t).view.read (Elt F) (outK m c)) :
    owns (c : Thread nD τ) (ms0_4 t) fullShare X ⊢ ((dats m 0 c).leaves 4 t : sProp 𝕄) := by
  have e : ((dats m 0 c).leaves 4 t : sProp 𝕄) = iprop(∃ d, owns (c : Thread nD τ) (ms0_4 t) fullShare
      (win0_4.fill (grid0.coords t) d (win0_4.cut (grid0.coords t) ((dats m 0 c).after 4 t)))) := by
    unfold Dat.leaves; rw [liveAt0_4 t]; rfl
  rw [e, after0_4, win0_4.cut_fill]
  iintro H; iexists X
  rw [← hX, win0_4.fill_cut]; iexact H

theorem leaves_out5 (c : Dev nD) (t : Fin cfg0.N) (X : Vec F S4x64x4096 .f32)
    (hX : win0_5.cut (grid0.coords t) X = (win0_5.blk t).view.read (Elt F) (outV m c)) :
    owns (c : Thread nD τ) (ms0_5 t) fullShare X ⊢ ((dats m 0 c).leaves 5 t : sProp 𝕄) := by
  have e : ((dats m 0 c).leaves 5 t : sProp 𝕄) = iprop(∃ d, owns (c : Thread nD τ) (ms0_5 t) fullShare
      (win0_5.fill (grid0.coords t) d (win0_5.cut (grid0.coords t) ((dats m 0 c).after 5 t)))) := by
    unfold Dat.leaves; rw [liveAt0_5 t]; rfl
  rw [e, after0_5, win0_5.cut_fill]
  iintro H; iexists X
  rw [← hX, win0_5.fill_cut]; iexact H

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t)

set_option maxHeartbeats 800000 in
/-- The body at any point: the inputs' buffers hold their blocks; the two guards say which case the point is in; that
    case's run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    leaves_in0, leaves_in1, leaves_in2, leaves_in3]
  have hN : t.val < 65 := lt_of_lt_of_eq t.isLt (show cfg0.N = 65 from N_0)
  by_cases h0 : t.val < 64
  · iintro ⟨HΦ, Ho, ⟨%d0, H0⟩, ⟨%d1, H1⟩, ⟨%d2, H2⟩, ⟨%d3, H3⟩, ⟨%d4, H4⟩, ⟨%d5, H5⟩⟩
    iapply ((run_copy c (grid0.coords t) _ _ _ _ _ _ _ _ _ _ _ _ ((guard_copy t).mpr h0)
      (fun h => absurd ((guard_append t).mp h) (by omega)) (iblk m c 0 t) (iblk m c 1 t) (iblk m c 2 t) (iblk m c 3 t)
      ((dats m 0 c).before 4 t d4) ((dats m 0 c).before 5 t d5)) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (leaves_out4 m c t _ (cut_copy4 m c t h0)); iexact H4
    iapply (leaves_out5 m c t _ (cut_copy5 m c t h0)); iexact H5
  · have h1 : t.val = 64 := by omega
    iintro ⟨HΦ, Ho, ⟨%d0, H0⟩, ⟨%d1, H1⟩, ⟨%d2, H2⟩, ⟨%d3, H3⟩, ⟨%d4, H4⟩, ⟨%d5, H5⟩⟩
    iapply ((run_append c (grid0.coords t) _ _ _ _ _ _ _ _ _ _ _ _ (fun h => h0 ((guard_copy t).mp h))
      ((guard_append t).mpr h1) (iblk m c 0 t) (iblk m c 1 t) (iblk m c 2 t) (iblk m c 3 t)
      ((dats m 0 c).before 4 t d4) ((dats m 0 c).before 5 t d5)) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (leaves_out4 m c t _ (cut_append4 m c t h1 _)); iexact H4
    iapply (leaves_out5 m c t _ (cut_append5 m c t h1 _)); iexact H5

/-- The library's body obligation, at every point, each result buffer described on its written-back part. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline ends at what the library computes
    from the proof data, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the run's post read at the four argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.BodyIdeal.lean ====
/-
  The kernel body at one grid point, run on any six whole staging buffers.

  The body has two guarded parts. Where the first guard holds and the second fails (the copying points) it
  stores the whole of the first cache block into the first result buffer and the whole of the second cache
  block into the second result buffer: each result buffer ends holding exactly the cache block it was given,
  whatever it held before. Where the first guard fails and the second holds (the appending point) it stores
  the sixteen new rows into the first sixteen rows of each 64-row result buffer and touches nothing else: each
  result buffer ends holding what it held before with its first sixteen rows replaced by the new rows. In both
  cases the four input buffers are only read and are handed back unchanged.
-/
import proofs.«164889_j12163347382340_2_alg».proof.Proof.Gen.KernelIdeal.Frame
import proofs.«164889_j12163347382340_2_alg».proof.Proof.Gen.KernelIdeal.Skeleton
import proofs.«164889_j12163347382340_2_alg».proof.Proof.LibWriteOverlay
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The three zero offsets every access of the body starts at. -/
theorem zero_offsets : (![0, 0, 0] : Fin 3 → Nat) = fun _ => 0 := funext fun a => by fin_cases a <;> rfl

/-- The first sixteen rows of a 64-row staging block, as a rectangle of the block. -/
abbrev topRows : Rect S4x64x4096 :=
  Rect.unit (s := S4x64x4096) ![0, 0, 0] S4x16x4096.size Facts₀.inb_S4x64x4096_S4x16x4096_0_0_0

/-- A 64-row block with its first sixteen rows replaced by the sixteen rows `x`. -/
abbrev withTopRows (d : Vec F S4x64x4096 .f32) (x : Vec F S4x16x4096 .f32) : Vec F S4x64x4096 .f32 :=
  topRows.overlay d x

/-- Inside the first sixteen rows, the replaced block is the new rows at the same coordinates. -/
theorem withTopRows_apply (d : Vec F S4x64x4096 .f32) (x : Vec F S4x16x4096 .f32) (y : S4x64x4096.Idx)
    (i : S4x16x4096.Idx) (hi : ∀ a, (y a).val = (i a).val) : withTopRows d x y = x i :=
  Cert.WriteOverlay.overlay_origin_apply zero_offsets Facts₀.inb_S4x64x4096_S4x16x4096_0_0_0 d x y i hi

set_option maxHeartbeats 1000000 in
/-- THE COPYING POINTS: the first guard holds, the second does not. Each result buffer ends at the cache block
    beside it; the inputs are unchanged. -/
theorem run_copy (c : Dev nD) (i : grid0.Coords) (arg1 : Memref sig .tc .vmem S4x64x4096 .f32) (harg1 : arg1.IsWhole) (arg2 : Memref sig .tc .vmem S4x64x4096 .f32) (harg2 : arg2.IsWhole) (arg3 : Memref sig .tc .vmem S4x16x4096 .f32) (harg3 : arg3.IsWhole) (arg4 : Memref sig .tc .vmem S4x16x4096 .f32) (harg4 : arg4.IsWhole) (arg5 : Memref sig .tc .vmem S4x64x4096 .f32) (harg5 : arg5.IsWhole) (arg6 : Memref sig .tc .vmem S4x64x4096 .f32) (harg6 : arg6.IsWhole) (hc0 : k0_cond1 i = 1#1) (hc1 : ¬k0_cond2 i = 1#1)
    (x0 : Vec F S4x64x4096 .f32) (x1 : Vec F S4x64x4096 .f32) (x2 : Vec F S4x16x4096 .f32) (x3 : Vec F S4x16x4096 .f32) (d4 d5 : Vec F S4x64x4096 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d4 ∗ owns (c : Thread nD τ) arg6 fullShare d5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x0 ∗ owns (c : Thread nD τ) arg6 fullShare x1) -∗ K ⟨⟩))
          ⊢ wp frame (wpE (defs₀ (F := F)) Variants.none c none) E (cc0__kv_append_kernel i arg1 harg1 arg2 harg2 arg3 harg3 arg4 harg4 arg5 harg5 arg6 harg6) K := by
    intro E K
    simp only [cc0__kv_append_kernel_eq_skeleton]; unfold cc0__kv_append_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      -- one store of the whole block: what was there before is gone, the payload is the first cache block as loaded
      rw [View.read_writes_eq_canon _ _ _ (fun y => ⟨_, List.mem_singleton_self _, View.mem_set_unit_zero zero_offsets Facts₀.inb_S4x64x4096_S4x64x4096_0_0_0 y⟩),
        View.canon_unit_zero zero_offsets, View.readAt_eq_ld, harg1.read_unread, View.ld_unit_zero zero_offsets]
    iexists _; isplitr; swap; · iexact H5
    ipureintro
    rw [View.read_writes_eq_canon _ _ _ (fun y => ⟨_, List.mem_singleton_self _, View.mem_set_unit_zero zero_offsets Facts₀.inb_S4x64x4096_S4x64x4096_0_0_0 y⟩),
      View.canon_unit_zero zero_offsets, View.readAt_eq_ld, harg2.read_unread, View.ld_unit_zero zero_offsets]

set_option maxHeartbeats 1000000 in
/-- THE APPENDING POINT: the first guard fails, the second holds. Each result buffer ends at what it held with its
    first sixteen rows replaced by the new rows beside it; the inputs are unchanged. -/
theorem run_append (c : Dev nD) (i : grid0.Coords) (arg1 : Memref sig .tc .vmem S4x64x4096 .f32) (harg1 : arg1.IsWhole) (arg2 : Memref sig .tc .vmem S4x64x4096 .f32) (harg2 : arg2.IsWhole) (arg3 : Memref sig .tc .vmem S4x16x4096 .f32) (harg3 : arg3.IsWhole) (arg4 : Memref sig .tc .vmem S4x16x4096 .f32) (harg4 : arg4.IsWhole) (arg5 : Memref sig .tc .vmem S4x64x4096 .f32) (harg5 : arg5.IsWhole) (arg6 : Memref sig .tc .vmem S4x64x4096 .f32) (harg6 : arg6.IsWhole) (hc0 : ¬k0_cond1 i = 1#1) (hc1 : k0_cond2 i = 1#1)
    (x0 : Vec F S4x64x4096 .f32) (x1 : Vec F S4x64x4096 .f32) (x2 : Vec F S4x16x4096 .f32) (x3 : Vec F S4x16x4096 .f32) (d4 d5 : Vec F S4x64x4096 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d4 ∗ owns (c : Thread nD τ) arg6 fullShare d5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (withTopRows d4 x2) ∗ owns (c : Thread nD τ) arg6 fullShare (withTopRows d5 x3)) -∗ K ⟨⟩))
          ⊢ wp frame (wpE (defs₀ (F := F)) Variants.none c none) E (cc0__kv_append_kernel i arg1 harg1 arg2 harg2 arg3 harg3 arg4 harg4 arg5 harg5 arg6 harg6) K := by
    intro E K
    simp only [cc0__kv_append_kernel_eq_skeleton]; unfold cc0__kv_append_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      -- one store through the first sixteen rows over what the buffer held; the payload is the new rows as loaded
      rw [Cert.WriteOverlay.read_write_eq_overlay, harg5.read_unread, View.readAt_eq_ld, harg3.read_unread,
        View.ld_unit_zero zero_offsets]
    iexists _; isplitr; swap; · iexact H5
    ipureintro
    rw [Cert.WriteOverlay.read_write_eq_overlay, harg6.read_unread, View.readAt_eq_ld, harg4.read_unread,
      View.ld_unit_zero zero_offsets]

end Cert.KernelIdeal.Body

end
-- ==== Proof.BlocksIdeal.lean ====
/-
  The blocks of the two result arrays.

  Each result array has 4112 rows and is written back in 65 blocks of 64 rows: block `t` starts at row `64 t`.
  Blocks 0 to 63 lie inside the array; block 64 starts at row 4096 and only its first 16 rows are inside (rows
  4096 to 4111), so only those are written back. The cache arrays have 4096 rows in 64 blocks of 64, and at the last
  point their block index is held at 63; the new rows are one block of 16 rows, the same at every point.

  With `out` the cache array followed by the new rows (the appended array), this file shows that what each point leaves
  in a result buffer agrees with block `t` of `out` on the part written back: at a copying point `t < 64` the buffer holds
  cache block `t`, rows `64 t` to `64 t + 63` of the cache, which are those rows of `out`; at the appending point
  the buffer's first 16 rows hold the new rows, which are rows 4096 to 4111 of `out`. It also shows that every row of a
  result array lies in the written part of some block: row `r` in block `r / 64`.
-/
import proofs.«164889_j12163347382340_2_alg».proof.Proof.BodyIdeal
import proofs.«164889_j12163347382340_2_alg».proof.Proof.Append
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ)

/-- The first result array as it should end: the first cache array followed by the first new rows. -/
def outK (c : Dev nD) : Buf (Elt F) ((c : Thread nD τ).loc main_v0_0) :=
  Cert.Append.appended Cert.Append.fits (m ((c : Thread nD τ).loc main_arg0)) (m ((c : Thread nD τ).loc main_arg2))

/-- The second result array as it should end: the second cache array followed by the second new rows. -/
def outV (c : Dev nD) : Buf (Elt F) ((c : Thread nD τ).loc main_v0_1) :=
  Cert.Append.appended Cert.Append.fits (m ((c : Thread nD τ).loc main_arg1)) (m ((c : Thread nD τ).loc main_arg3))

/-- The index maps and the written-back sizes, decided once over the 65 grid points: a result block's row index is the
    point, a cache block's the point held at 63, the new rows' always 0; a result block is written back whole before the
    last point and on its first 16 rows at the last. -/
theorem grid_facts : ∀ t : Fin cfg0.N,
    (win0_4.index t (0 : Fin 3) = 0 ∧ win0_4.index t (1 : Fin 3) = t.val ∧ win0_4.index t (2 : Fin 3) = 0)
    ∧ (win0_5.index t (0 : Fin 3) = 0 ∧ win0_5.index t (1 : Fin 3) = t.val ∧ win0_5.index t (2 : Fin 3) = 0)
    ∧ (win0_0.index t (0 : Fin 3) = 0 ∧ win0_0.index t (1 : Fin 3) = min t.val 63 ∧ win0_0.index t (2 : Fin 3) = 0)
    ∧ (win0_1.index t (0 : Fin 3) = 0 ∧ win0_1.index t (1 : Fin 3) = min t.val 63 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.xsize (grid0.coords t) (0 : Fin 3) = 4 ∧ (t.val < 64 → win0_4.xsize (grid0.coords t) (1 : Fin 3) = 64)
        ∧ (t.val = 64 → win0_4.xsize (grid0.coords t) (1 : Fin 3) = 16) ∧ win0_4.xsize (grid0.coords t) (2 : Fin 3) = 4096)
    ∧ (win0_5.xsize (grid0.coords t) (0 : Fin 3) = 4 ∧ (t.val < 64 → win0_5.xsize (grid0.coords t) (1 : Fin 3) = 64)
        ∧ (t.val = 64 → win0_5.xsize (grid0.coords t) (1 : Fin 3) = 16) ∧ win0_5.xsize (grid0.coords t) (2 : Fin 3) = 4096) :=
  (by decide +kernel : ∀ t : Fin grid0.N, _)

/-- Neither result window is idle at any point: one of the two guards holds everywhere on the grid. -/
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-- The first guard holds exactly before point 64, the second exactly at it. -/
theorem guard_copy : ∀ t : Fin cfg0.N, k0_cond1 (grid0.coords t) = 1#1 ↔ t.val < 64 :=
  (by decide +kernel : ∀ t : Fin grid0.N, k0_cond1 (grid0.coords t) = 1#1 ↔ t.val < 64)
theorem guard_append : ∀ t : Fin cfg0.N, k0_cond2 (grid0.coords t) = 1#1 ↔ t.val = 64 :=
  (by decide +kernel : ∀ t : Fin grid0.N, k0_cond2 (grid0.coords t) = 1#1 ↔ t.val = 64)

/-! ## A copying point: cache block `t` is block `t` of the appended array -/

theorem cut_copy4 (c : Dev nD) (t : Fin cfg0.N) (h0 : t.val < 64) :
    win0_4.cut (grid0.coords t) (iblk m c 0 t) = (win0_4.blk t).view.read (Elt F) (outK m c) := by
  obtain ⟨⟨a0, a1, a2⟩, -, ⟨b0, b1, b2⟩, -, -, -, -, -⟩ := grid_facts t
  funext j
  show V m c main_arg0 (((cfg0.win 0).blk t).view.emb (win0_4.xinj (grid0.coords t) j)) = outK m c ((win0_4.blk t).view.emb j)
  unfold outK
  refine (Cert.Append.appended_old _ _ _ _ (((cfg0.win 0).blk t).view.emb (win0_4.xinj (grid0.coords t) j)) fun k => ?_).symm
  match k with
  | ⟨0, _⟩ => show win0_0.index t (0 : Fin 3) * 4 + 1 * (j 0).val = win0_4.index t (0 : Fin 3) * 4 + 1 * (j 0).val; omega
  | ⟨1, _⟩ => show win0_0.index t (1 : Fin 3) * 64 + 1 * (j 1).val = win0_4.index t (1 : Fin 3) * 64 + 1 * (j 1).val; omega
  | ⟨2, _⟩ => show win0_0.index t (2 : Fin 3) * 4096 + 1 * (j 2).val = win0_4.index t (2 : Fin 3) * 4096 + 1 * (j 2).val; omega

theorem cut_copy5 (c : Dev nD) (t : Fin cfg0.N) (h0 : t.val < 64) :
    win0_5.cut (grid0.coords t) (iblk m c 1 t) = (win0_5.blk t).view.read (Elt F) (outV m c) := by
  obtain ⟨-, ⟨a0, a1, a2⟩, -, ⟨b0, b1, b2⟩, -, -, -, -⟩ := grid_facts t
  funext j
  show V m c main_arg1 (((cfg0.win 1).blk t).view.emb (win0_5.xinj (grid0.coords t) j)) = outV m c ((win0_5.blk t).view.emb j)
  unfold outV
  refine (Cert.Append.appended_old _ _ _ _ (((cfg0.win 1).blk t).view.emb (win0_5.xinj (grid0.coords t) j)) fun k => ?_).symm
  match k with
  | ⟨0, _⟩ => show win0_1.index t (0 : Fin 3) * 4 + 1 * (j 0).val = win0_5.index t (0 : Fin 3) * 4 + 1 * (j 0).val; omega
  | ⟨1, _⟩ => show win0_1.index t (1 : Fin 3) * 64 + 1 * (j 1).val = win0_5.index t (1 : Fin 3) * 64 + 1 * (j 1).val; omega
  | ⟨2, _⟩ => show win0_1.index t (2 : Fin 3) * 4096 + 1 * (j 2).val = win0_5.index t (2 : Fin 3) * 4096 + 1 * (j 2).val; omega

/-! ## The appending point: the buffer's first sixteen rows are rows 4096 to 4111 of the appended array -/

theorem cut_append4 (c : Dev nD) (t : Fin cfg0.N) (h1 : t.val = 64) (d : Vec F S4x64x4096 .f32) :
    win0_4.cut (grid0.coords t) (withTopRows d (iblk m c 2 t)) = (win0_4.blk t).view.read (Elt F) (outK m c) := by
  obtain ⟨⟨a0, a1, a2⟩, -, -, -, ⟨b0, b1, b2⟩, -, ⟨s0, -, s1, s2⟩, -⟩ := grid_facts t
  funext j
  have hj : ∀ a : Fin 3, (j a).val < win0_4.xsize (grid0.coords t) a := fun a => (j a).isLt
  have hj0 := hj 0
  have hj1 := hj 1
  have hj2 := hj 2
  rw [s0] at hj0; rw [s1 h1] at hj1; rw [s2] at hj2
  show withTopRows d (iblk m c 2 t) (win0_4.xinj (grid0.coords t) j) = outK m c ((win0_4.blk t).view.emb j)
  refine (withTopRows_apply d (iblk m c 2 t) (win0_4.xinj (grid0.coords t) j)
    (ValueIdx.ix3 (⟨(j 0).val, hj0⟩ : Fin 4) (⟨(j 1).val, hj1⟩ : Fin 16) (⟨(j 2).val, hj2⟩ : Fin 4096))
    (fun a => by match a with | ⟨0, _⟩ => rfl | ⟨1, _⟩ => rfl | ⟨2, _⟩ => rfl)).trans ?_
  show V m c main_arg2 (((cfg0.win 2).blk t).view.emb (ValueIdx.ix3 (⟨(j 0).val, hj0⟩ : Fin 4) (⟨(j 1).val, hj1⟩ : Fin 16) (⟨(j 2).val, hj2⟩ : Fin 4096))) = _
  unfold outK
  refine (Cert.Append.appended_new _ _ _ _ (((cfg0.win 2).blk t).view.emb (ValueIdx.ix3 (⟨(j 0).val, hj0⟩ : Fin 4) (⟨(j 1).val, hj1⟩ : Fin 16) (⟨(j 2).val, hj2⟩ : Fin 4096))) ?_ ?_ ?_).symm
  · show win0_2.index t (0 : Fin 3) * 4 + 1 * (j 0).val = win0_4.index t (0 : Fin 3) * 4 + 1 * (j 0).val; omega
  · show win0_2.index t (1 : Fin 3) * 16 + 1 * (j 1).val + 4096 = win0_4.index t (1 : Fin 3) * 64 + 1 * (j 1).val; omega
  · show win0_2.index t (2 : Fin 3) * 4096 + 1 * (j 2).val = win0_4.index t (2 : Fin 3) * 4096 + 1 * (j 2).val; omega

theorem cut_append5 (c : Dev nD) (t : Fin cfg0.N) (h1 : t.val = 64) (d : Vec F S4x64x4096 .f32) :
    win0_5.cut (grid0.coords t) (withTopRows d (iblk m c 3 t)) = (win0_5.blk t).view.read (Elt F) (outV m c) := by
  obtain ⟨-, ⟨a0, a1, a2⟩, -, -, -, ⟨b0, b1, b2⟩, -, ⟨s0, -, s1, s2⟩⟩ := grid_facts t
  funext j
  have hj : ∀ a : Fin 3, (j a).val < win0_5.xsize (grid0.coords t) a := fun a => (j a).isLt
  have hj0 := hj 0
  have hj1 := hj 1
  have hj2 := hj 2
  rw [s0] at hj0; rw [s1 h1] at hj1; rw [s2] at hj2
  show withTopRows d (iblk m c 3 t) (win0_5.xinj (grid0.coords t) j) = outV m c ((win0_5.blk t).view.emb j)
  refine (withTopRows_apply d (iblk m c 3 t) (win0_5.xinj (grid0.coords t) j)
    (ValueIdx.ix3 (⟨(j 0).val, hj0⟩ : Fin 4) (⟨(j 1).val, hj1⟩ : Fin 16) (⟨(j 2).val, hj2⟩ : Fin 4096))
    (fun a => by match a with | ⟨0, _⟩ => rfl | ⟨1, _⟩ => rfl | ⟨2, _⟩ => rfl)).trans ?_
  show V m c main_arg3 (((cfg0.win 3).blk t).view.emb (ValueIdx.ix3 (⟨(j 0).val, hj0⟩ : Fin 4) (⟨(j 1).val, hj1⟩ : Fin 16) (⟨(j 2).val, hj2⟩ : Fin 4096))) = _
  unfold outV
  refine (Cert.Append.appended_new _ _ _ _ (((cfg0.win 3).blk t).view.emb (ValueIdx.ix3 (⟨(j 0).val, hj0⟩ : Fin 4) (⟨(j 1).val, hj1⟩ : Fin 16) (⟨(j 2).val, hj2⟩ : Fin 4096))) ?_ ?_ ?_).symm
  · show win0_3.index t (0 : Fin 3) * 4 + 1 * (j 0).val = win0_5.index t (0 : Fin 3) * 4 + 1 * (j 0).val; omega
  · show win0_3.index t (1 : Fin 3) * 16 + 1 * (j 1).val + 4096 = win0_5.index t (1 : Fin 3) * 64 + 1 * (j 1).val; omega
  · show win0_3.index t (2 : Fin 3) * 4096 + 1 * (j 2).val = win0_5.index t (2 : Fin 3) * 4096 + 1 * (j 2).val; omega

/-! ## Every row of a result array is written back by some point -/

/-- An index of the first result array is in the written part of block `t` iff each coordinate is in the block's range,
    the range cut at the array's end. -/
theorem mem_blk4 (t : Fin cfg0.N) (i : S4x4112x4096.Idx) :
    i ∈ ((cfg0.win 4).blk t).view.set ↔ ∀ a : Fin 3, win0_4.index t a * S4x64x4096.size a ≤ (i a).val
      ∧ (i a).val < win0_4.index t a * S4x64x4096.size a + win0_4.xsize (grid0.coords t) a := by
  show i ∈ ((View.whole main_v0_0).slice (win0_4.rect t)).set ↔ _
  rw [View.set_slice_whole, Rect.mem_set_unit]
  exact Iff.rfl

theorem mem_blk5 (t : Fin cfg0.N) (i : S4x4112x4096.Idx) :
    i ∈ ((cfg0.win 5).blk t).view.set ↔ ∀ a : Fin 3, win0_5.index t a * S4x64x4096.size a ≤ (i a).val
      ∧ (i a).val < win0_5.index t a * S4x64x4096.size a + win0_5.xsize (grid0.coords t) a := by
  show i ∈ ((View.whole main_v0_1).slice (win0_5.rect t)).set ↔ _
  rw [View.set_slice_whole, Rect.mem_set_unit]
  exact Iff.rfl

/-- Row `r` is in the written part of block `r / 64`: a whole block when `r < 4096`, the sixteen rows of the last
    block otherwise. -/
theorem cover4 (i : S4x4112x4096.Idx) : ∃ t : Fin cfg0.N, (cfg0.win 4).flush t = true ∧ i ∈ ((cfg0.win 4).blk t).view.set := by
  have h0 : (i 0).val < 4 := (i 0).isLt
  have h1 : (i 1).val < 4112 := (i 1).isLt
  have h2 : (i 2).val < 4096 := (i 2).isLt
  have hN : (i 1).val / 64 < cfg0.N := by show _ < grid0.N; rw [N_0]; omega
  refine ⟨⟨(i 1).val / 64, hN⟩, flush0_4 _, ?_⟩
  rw [mem_blk4]
  obtain ⟨⟨a0, a1, a2⟩, -, -, -, -, -, ⟨s0, sA, sB, s2⟩, -⟩ := grid_facts ⟨(i 1).val / 64, hN⟩
  have a1' : win0_4.index ⟨(i 1).val / 64, hN⟩ (1 : Fin 3) = (i 1).val / 64 := a1
  intro a
  match a with
  | ⟨0, _⟩ =>
    show win0_4.index ⟨(i 1).val / 64, hN⟩ (0 : Fin 3) * 4 ≤ (i 0).val ∧ (i 0).val < win0_4.index ⟨(i 1).val / 64, hN⟩ (0 : Fin 3) * 4 + win0_4.xsize (grid0.coords ⟨(i 1).val / 64, hN⟩) (0 : Fin 3)
    rw [s0]; omega
  | ⟨1, _⟩ =>
    show win0_4.index ⟨(i 1).val / 64, hN⟩ (1 : Fin 3) * 64 ≤ (i 1).val ∧ (i 1).val < win0_4.index ⟨(i 1).val / 64, hN⟩ (1 : Fin 3) * 64 + win0_4.xsize (grid0.coords ⟨(i 1).val / 64, hN⟩) (1 : Fin 3)
    by_cases hlt : (i 1).val / 64 < 64
    · rw [sA hlt]; omega
    · rw [sB (by show (i 1).val / 64 = 64; omega)]; omega
  | ⟨2, _⟩ =>
    show win0_4.index ⟨(i 1).val / 64, hN⟩ (2 : Fin 3) * 4096 ≤ (i 2).val ∧ (i 2).val < win0_4.index ⟨(i 1).val / 64, hN⟩ (2 : Fin 3) * 4096 + win0_4.xsize (grid0.coords ⟨(i 1).val / 64, hN⟩) (2 : Fin 3)
    rw [s2]; omega

theorem cover5 (i : S4x4112x4096.Idx) : ∃ t : Fin cfg0.N, (cfg0.win 5).flush t = true ∧ i ∈ ((cfg0.win 5).blk t).view.set := by
  have h0 : (i 0).val < 4 := (i 0).isLt
  have h1 : (i 1).val < 4112 := (i 1).isLt
  have h2 : (i 2).val < 4096 := (i 2).isLt
  have hN : (i 1).val / 64 < cfg0.N := by show _ < grid0.N; rw [N_0]; omega
  refine ⟨⟨(i 1).val / 64, hN⟩, flush0_5 _, ?_⟩
  rw [mem_blk5]
  obtain ⟨-, ⟨a0, a1, a2⟩, -, -, -, -, -, ⟨s0, sA, sB, s2⟩⟩ := grid_facts ⟨(i 1).val / 64, hN⟩
  have a1' : win0_5.index ⟨(i 1).val / 64, hN⟩ (1 : Fin 3) = (i 1).val / 64 := a1
  intro a
  match a with
  | ⟨0, _⟩ =>
    show win0_5.index ⟨(i 1).val / 64, hN⟩ (0 : Fin 3) * 4 ≤ (i 0).val ∧ (i 0).val < win0_5.index ⟨(i 1).val / 64, hN⟩ (0 : Fin 3) * 4 + win0_5.xsize (grid0.coords ⟨(i 1).val / 64, hN⟩) (0 : Fin 3)
    rw [s0]; omega
  | ⟨1, _⟩ =>
    show win0_5.index ⟨(i 1).val / 64, hN⟩ (1 : Fin 3) * 64 ≤ (i 1).val ∧ (i 1).val < win0_5.index ⟨(i 1).val / 64, hN⟩ (1 : Fin 3) * 64 + win0_5.xsize (grid0.coords ⟨(i 1).val / 64, hN⟩) (1 : Fin 3)
    by_cases hlt : (i 1).val / 64 < 64
    · rw [sA hlt]; omega
    · rw [sB (by show (i 1).val / 64 = 64; omega)]; omega
  | ⟨2, _⟩ =>
    show win0_5.index ⟨(i 1).val / 64, hN⟩ (2 : Fin 3) * 4096 ≤ (i 2).val ∧ (i 2).val < win0_5.index ⟨(i 1).val / 64, hN⟩ (2 : Fin 3) * 4096 + win0_5.xsize (grid0.coords ⟨(i 1).val / 64, hN⟩) (2 : Fin 3)
    rw [s2]; omega

end Cert.KernelIdeal.Body

end
-- ==== Proof.FrameIdeal.lean ====
/-
  The pipeline's proof data, the body obligation at every grid point, and the run.

  After the body at point `t` each input buffer still holds its block, and each result buffer holds block `t` of the
  appended array on the rows that are written back (all 64 rows before the last point, the first 16 at the last);
  the rows of the last block that overhang the array are not written back and nothing is said of them. The body
  obligation follows from the two runs of the body: at a copying point the result buffer holds the cache block, which
  is that block of the appended array; at the appending point its first sixteen rows hold the new rows, which are rows
  4096 to 4111 of the appended array. The library's frame run then gives: every weakly fair execution terminates, each
  input array is unchanged and each result array is what the write-backs, in point order, leave.
-/
import proofs.«164889_j12163347382340_2_alg».proof.Proof.BlocksIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What fills a result block past the array's end in the proof data: a fixed word, never written back. -/
abbrev filler : S4x64x4096.Idx → Elt F .f32 := fun _ => Scalar.ofBits .f32 0#32

/-- The proof data of the one pipeline on core `c`: the arrays as the region finds them; after the body at point `t`
    each input's buffer at its block, each result's at block `t` of the appended array, filled out past the array's end. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => win0_4.fill (grid0.coords t) filler ((win0_4.blk t).view.read (Elt F) (outK m c))
    | ⟨5, _⟩ => win0_5.fill (grid0.coords t) filler ((win0_5.blk t).view.read (Elt F) (outV m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = win0_4.fill (grid0.coords t) filler ((win0_4.blk t).view.read (Elt F) (outK m c)) := by dsimp only [dats]
theorem after0_5 (c : Dev nD) (t : Fin cfg0.N) : (dats m 0 c).after 5 t
    = win0_5.fill (grid0.coords t) filler ((win0_5.blk t).view.read (Elt F) (outV m c)) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What point `t` writes back of a result buffer is block `t` of the appended array. -/
theorem flushed4 (c : Dev nD) (t : Fin cfg0.N) :
    (dats m 0 c).flushed 4 t = ((cfg0.win 4).blk t).view.read (Elt F) (outK m c) := by
  show (cfg0.win 4).cut (grid0.coords t) ((dats m 0 c).after 4 t) = _
  rw [after0_4]; exact win0_4.cut_fill _ _ _
theorem flushed5 (c : Dev nD) (t : Fin cfg0.N) :
    (dats m 0 c).flushed 5 t = ((cfg0.win 5).blk t).view.read (Elt F) (outV m c) := by
  show (cfg0.win 5).cut (grid0.coords t) ((dats m 0 c).after 5 t) = _
  rw [after0_5]; exact win0_5.cut_fill _ _ _

/-! ## The current staging memrefs -/

abbrev ms0_0 (t : Fin cfg0.N) : Memref sig .tc .vmem S4x64x4096 .f32 := win0_0.stage (cfg0.slots t 0)
abbrev ms0_1 (t : Fin cfg0.N) : Memref sig .tc .vmem S4x64x4096 .f32 := win0_1.stage (cfg0.slots t 1)
abbrev ms0_2 (t : Fin cfg0.N) : Memref sig .tc .vmem S4x16x4096 .f32 := win0_2.stage (cfg0.slots t 2)
abbrev ms0_3 (t : Fin cfg0.N) : Memref sig .tc .vmem S4x16x4096 .f32 := win0_3.stage (cfg0.slots t 3)
abbrev ms0_4 (t : Fin cfg0.N) : Memref sig .tc .vmem S4x64x4096 .f32 := win0_4.stage (cfg0.slots t 4)
abbrev ms0_5 (t : Fin cfg0.N) : Memref sig .tc .vmem S4x64x4096 .f32 := win0_5.stage (cfg0.slots t 5)

/-! ## What the obligation asks of each buffer after the body -/

theorem leaves_in0 (c : Dev nD) (t : Fin cfg0.N) :
    ((dats m 0 c).leaves 0 t : sProp 𝕄) = owns (c : Thread nD τ) (ms0_0 t) fullShare (iblk m c 0 t) := by
  unfold Dat.leaves; rw [liveAt0_0 t, ← after0_0 m c t]
theorem leaves_in1 (c : Dev nD) (t : Fin cfg0.N) :
    ((dats m 0 c).leaves 1 t : sProp 𝕄) = owns (c : Thread nD τ) (ms0_1 t) fullShare (iblk m c 1 t) := by
  unfold Dat.leaves; rw [liveAt0_1 t, ← after0_1 m c t]
theorem leaves_in2 (c : Dev nD) (t : Fin cfg0.N) :
    ((dats m 0 c).leaves 2 t : sProp 𝕄) = owns (c : Thread nD τ) (ms0_2 t) fullShare (iblk m c 2 t) := by
  unfold Dat.leaves; rw [liveAt0_2 t, ← after0_2 m c t]
theorem leaves_in3 (c : Dev nD) (t : Fin cfg0.N) :
    ((dats m 0 c).leaves 3 t : sProp 𝕄) = owns (c : Thread nD τ) (ms0_3 t) fullShare (iblk m c 3 t) := by
  unfold Dat.leaves; rw [liveAt0_3 t, ← after0_3 m c t]

/-- A result buffer whose written-back part is block `t` of the appended array is what the obligation asks for: the
    obligation speaks of that part only. -/
theorem leaves_out4 (c : Dev nD) (t : Fin cfg0.N) (X : Vec F S4x64x4096 .f32)
    (hX : win0_4.cut (grid0.coords t) X = (win0_4.blk t).view.read (Elt F) (outK m c)) :
    owns (c : Thread nD τ) (ms0_4 t) fullShare X ⊢ ((dats m 0 c).leaves 4 t : sProp 𝕄) := by
  have e : ((dats m 0 c).leaves 4 t : sProp 𝕄) = iprop(∃ d, owns (c : Thread nD τ) (ms0_4 t) fullShare
      (win0_4.fill (grid0.coords t) d (win0_4.cut (grid0.coords t) ((dats m 0 c).after 4 t)))) := by
    unfold Dat.leaves; rw [liveAt0_4 t]; rfl
  rw [e, after0_4, win0_4.cut_fill]
  iintro H; iexists X
  rw [← hX, win0_4.fill_cut]; iexact H

theorem leaves_out5 (c : Dev nD) (t : Fin cfg0.N) (X : Vec F S4x64x4096 .f32)
    (hX : win0_5.cut (grid0.coords t) X = (win0_5.blk t).view.read (Elt F) (outV m c)) :
    owns (c : Thread nD τ) (ms0_5 t) fullShare X ⊢ ((dats m 0 c).leaves 5 t : sProp 𝕄) := by
  have e : ((dats m 0 c).leaves 5 t : sProp 𝕄) = iprop(∃ d, owns (c : Thread nD τ) (ms0_5 t) fullShare
      (win0_5.fill (grid0.coords t) d (win0_5.cut (grid0.coords t) ((dats m 0 c).after 5 t)))) := by
    unfold Dat.leaves; rw [liveAt0_5 t]; rfl
  rw [e, after0_5, win0_5.cut_fill]
  iintro H; iexists X
  rw [← hX, win0_5.fill_cut]; iexact H

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t)

set_option maxHeartbeats 800000 in
/-- The body at any point: the inputs' buffers hold their blocks; the two guards say which case the point is in; that
    case's run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    leaves_in0, leaves_in1, leaves_in2, leaves_in3]
  have hN : t.val < 65 := lt_of_lt_of_eq t.isLt (show cfg0.N = 65 from N_0)
  by_cases h0 : t.val < 64
  · iintro ⟨HΦ, Ho, ⟨%d0, H0⟩, ⟨%d1, H1⟩, ⟨%d2, H2⟩, ⟨%d3, H3⟩, ⟨%d4, H4⟩, ⟨%d5, H5⟩⟩
    iapply ((run_copy c (grid0.coords t) _ _ _ _ _ _ _ _ _ _ _ _ ((guard_copy t).mpr h0)
      (fun h => absurd ((guard_append t).mp h) (by omega)) (iblk m c 0 t) (iblk m c 1 t) (iblk m c 2 t) (iblk m c 3 t)
      ((dats m 0 c).before 4 t d4) ((dats m 0 c).before 5 t d5)) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (leaves_out4 m c t _ (cut_copy4 m c t h0)); iexact H4
    iapply (leaves_out5 m c t _ (cut_copy5 m c t h0)); iexact H5
  · have h1 : t.val = 64 := by omega
    iintro ⟨HΦ, Ho, ⟨%d0, H0⟩, ⟨%d1, H1⟩, ⟨%d2, H2⟩, ⟨%d3, H3⟩, ⟨%d4, H4⟩, ⟨%d5, H5⟩⟩
    iapply ((run_append c (grid0.coords t) _ _ _ _ _ _ _ _ _ _ _ _ (fun h => h0 ((guard_copy t).mp h))
      ((guard_append t).mpr h1) (iblk m c 0 t) (iblk m c 1 t) (iblk m c 2 t) (iblk m c 3 t)
      ((dats m 0 c).before 4 t d4) ((dats m 0 c).before 5 t d5)) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (leaves_out4 m c t _ (cut_append4 m c t h1 _)); iexact H4
    iapply (leaves_out5 m c t _ (cut_append5 m c t h1 _)); iexact H5

/-- The library's body obligation, at every point, each result buffer described on its written-back part. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline ends at what the library computes
    from the proof data, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the run's post read at the four argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.ValueIdeal.lean ====
/-
  The two result arrays after the run, each as one function of the argument arrays.

  Every point writes back, of its result buffer, block `t` of the appended array (the part of the block inside the
  array), and every row of the array is in the written part of some block; so, whatever order the write-backs come in
  and however often a row is written, each result array ends as the appended array: the cache array followed by the new
  rows.
-/
import proofs.«164889_j12163347382340_2_alg».proof.Proof.FrameIdeal
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The first result array ends as the first cache array followed by the first new rows. -/
theorem final4 (c : Dev nD) : (dats m 0 c).arrAt 4 cfg0.N = outK m c :=
  (dats m 0 c).arrAt_eq_of_cover 4 (outK m c) (fun t _ => flushed4 m c t) cover4

/-- The second result array ends as the second cache array followed by the second new rows. -/
theorem final5 (c : Dev nD) : (dats m 0 c).arrAt 5 cfg0.N = outV m c :=
  (dats m 0 c).arrAt_eq_of_cover 5 (outV m c) (fun t _ => flushed5 m c t) cover5

/-- The run, with each result array named and the argument arrays unchanged. -/
theorem run_values : θ_run defs (onTc (τ := τ) (main (F := F))) ⟨m, fun _ => 0, ρ⟩ (fun r => ∀ c : Dev nD,
      r.2.mem ((c.tc : Thread nD τ).loc main_v0_0) = outK m c
      ∧ r.2.mem ((c.tc : Thread nD τ).loc main_v0_1) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final4 m c), ((h c).1 5).trans (final5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Body

end
-- ==== Proof.lean ====
/-
  A cache of 4096 rows extended by 16 new rows, twice over (keys and values): the kernel against concatenation.

  The kernel copies the cache to the first 4096 rows of the result 64 rows at a time, one block per grid point, and at
  one last point writes the 16 new rows into the start of a 64-row block of which only those 16 rows lie inside the
  4112-row result and are written back. The reference concatenates the cache and the new rows along the row axis. No
  arithmetic is done on the entries, so the two results are equal entry by entry as they stand: below row 4096 both are
  the cache's entry, from row 4096 on both are the new rows' entry. Nothing about the entries being finite is used.

  The frames of the two kernel programs come from the pipeline's frame run with the body proved point by point
  (the copying points and the appending point); the reference's frame is its run with the results dropped; the
  idealization rewrote nothing, so there is nothing to preserve.
-/
import proofs.«164889_j12163347382340_2_alg».proof.Defs
import proofs.«164889_j12163347382340_2_alg».proof.Proof.Gen.Kernel
import proofs.«164889_j12163347382340_2_alg».proof.Proof.Gen.KernelIdeal
import proofs.«164889_j12163347382340_2_alg».proof.Proof.Gen.ReferenceIdeal
import proofs.«164889_j12163347382340_2_alg».proof.Proof.Gen.ReferenceIdeal.Run
import proofs.«164889_j12163347382340_2_alg».proof.Proof.Gen.Pre_finite_inputs
import proofs.«164889_j12163347382340_2_alg».proof.Proof.Append
import proofs.«164889_j12163347382340_2_alg».proof.Proof.FrameBits
import proofs.«164889_j12163347382340_2_alg».proof.Proof.ValueIdeal
import Idealize.ShloMosaic.Adequacy
import Idealize.ShloMosaic.Init

noncomputable section

namespace Cert.Proof

open Idealize.ShloMosaic Idealize.ShloMosaic.TcCoe Idealize.SL.Sem

/-- The kernel as printed runs and leaves its four argument arrays as they were. -/
theorem frame_kernel : Cert.frame_Kernel := fun m ρ _ => Cert.Kernel.Body.frame m ρ

/-- So does the kernel read over the extended reals. -/
theorem frame_kernel_ideal : Cert.frame_KernelIdeal := fun m ρ _ => Cert.KernelIdeal.Body.frame m ρ

/-- The reference runs and leaves its arguments as they were: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The kernel's two result arrays end as the cache arrays followed by the new rows; the reference's two results are
    those concatenations by definition; the arguments agree, so the results do. -/
theorem algebraic : Cert.algebraic_KernelIdeal_ReferenceIdeal := by
  intro m ρ m' ρ' _ hagree
  refine ⟨fun c => Cert.KernelIdeal.Body.outK m c, fun c => Cert.KernelIdeal.Body.outV m c,
    Cert.KernelIdeal.Body.run_values (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.2.1]; rfl
  · rw [(hagree c).2.1, (hagree c).2.2.2]; rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
